-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512 : Shape := ⟨3, ![8, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel

variable [Facts]

def fn {F : FTy → Type} [FloatOps F] (main_arg0 : FVec F S8x16x512x512 .f32) (main_arg1 : IVec S8x512x512 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  main_v3
-- ==== Kernel.lean ====
abbrev S8x16x512x512 : Shape := ⟨4, ![8, 16, 512, 512]⟩
abbrev S8x512x512 : Shape := ⟨3, ![8, 512, 512]⟩
abbrev S8x16x1 : Shape := ⟨3, ![8, 16, 1]⟩
abbrev S4x16x128x256 : Shape := ⟨4, ![4, 16, 128, 256]⟩
abbrev S4x128x256 : Shape := ⟨3, ![4, 128, 256]⟩
abbrev S4x16x1 : Shape := ⟨3, ![4, 16, 1]⟩
abbrev S1x16x1x1 : Shape := ⟨4, ![1, 16, 1, 1]⟩
abbrev S4x1x128x256 : Shape := ⟨4, ![4, 1, 128, 256]⟩
abbrev S4x16x128 : Shape := ⟨3, ![4, 16, 128]⟩
abbrev S4x16 : Shape := ⟨2, ![4, 16]⟩
abbrev S8x16 : Shape := ⟨2, ![8, 16]⟩
abbrev S_ : Shape := ⟨0, ![]⟩
abbrev S8 : Shape := ⟨1, ![8]⟩

abbrev nBuf : Space → Nat
  | .hbm => 22
  | .vmem => 8
  | .smem => 0
  | _ => 0

abbrev bufTy : (tb : Table) → Fin (tcTables nBuf tb) → BufTy
  | .hbm, ⟨0, _⟩ => ⟨S8x16x512x512, .f32⟩
  | .hbm, ⟨1, _⟩ => ⟨S8x512x512, .i32⟩
  | .hbm, ⟨2, _⟩ => ⟨S8x16x1, .f32⟩
  | .hbm, ⟨3, _⟩ => ⟨S8x16x1, .f32⟩
  | .hbm, ⟨4, _⟩ => ⟨S8x16, .f32⟩
  | .hbm, ⟨5, _⟩ => ⟨S8x16, .f32⟩
  | .hbm, ⟨6, _⟩ => ⟨S_, .f32⟩
  | .hbm, ⟨7, _⟩ => ⟨S8x16, .f32⟩
  | .hbm, ⟨8, _⟩ => ⟨S8x16, .f32⟩
  | .hbm, ⟨9, _⟩ => ⟨S_, .f32⟩
  | .hbm, ⟨10, _⟩ => ⟨S8x16, .f32⟩
  | .hbm, ⟨11, _⟩ => ⟨S8x16, .f32⟩
  | .hbm, ⟨12, _⟩ => ⟨S_, .f32⟩
  | .hbm, ⟨13, _⟩ => ⟨S8x16, .f32⟩
  | .hbm, ⟨14, _⟩ => ⟨S8x16, .f32⟩
  | .hbm, ⟨15, _⟩ => ⟨S8x16, .f32⟩
  | .hbm, ⟨16, _⟩ => ⟨S_, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .local _ .vmem, ⟨0, _⟩ => ⟨S4x16x128x256, .f32⟩
  | .local _ .vmem, ⟨1, _⟩ => ⟨S4x16x128x256, .f32⟩
  | .local _ .vmem, ⟨2, _⟩ => ⟨S4x128x256, .i32⟩
  | .local _ .vmem, ⟨3, _⟩ => ⟨S4x128x256, .i32⟩
  | .local _ .vmem, ⟨4, _⟩ => ⟨S4x16x1, .f32⟩
  | .local _ .vmem, ⟨5, _⟩ => ⟨S4x16x1, .f32⟩
  | .local _ .vmem, ⟨6, _⟩ => ⟨S4x16x1, .f32⟩
  | .local _ .vmem, ⟨7, _⟩ => ⟨S4x16x1, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S4x16x1_S4x16x1_0_0_0 : ∀ a, (![0, 0, 0] : Fin 3 → Nat) a + S4x16x1.size a ≤ S4x16x1.size a
  h_S4x16x1 : 0 < S4x16x1.numel
  inb_S4x16x128x256_S4x16x128x256_0_0_0_0 : ∀ a, (![0, 0, 0, 0] : Fin 4 → Nat) a + S4x16x128x256.size a ≤ S4x16x128x256.size a
  h_S4x16x128x256 : 0 < S4x16x128x256.numel
  inb_S4x128x256_S4x128x256_0_0_0 : ∀ a, (![0, 0, 0] : Fin 3 → Nat) a + S4x128x256.size a ≤ S4x128x256.size a
  h_S4x128x256 : 0 < S4x128x256.numel
  iota_S1x16x1x1_d1_w32 : S1x16x1x1.Iotas .tc 32 [1]
  shapeCasts_S4x128x256_S4x1x128x256 : S4x128x256.ShapeCasts S4x1x128x256
  broadcasts_S4x1x128x256_S4x16x128x256 : S4x1x128x256.Broadcasts S4x16x128x256
  broadcasts_S1x16x1x1_S4x16x128x256 : S1x16x1x1.Broadcasts S4x16x128x256
  natLt_1_32 : 1 < 32
  reduces_S4x16x128x256_S4x16x128 : S4x16x128x256.Reduces [3] S4x16x128
  reduces_S4x16x128_S4x16 : S4x16x128.Reduces [2] S4x16
  shapeCasts_S4x16x1_S4x16x1 : S4x16x1.ShapeCasts S4x16x1
  shapeCasts_S4x16_S4x16x1 : S4x16.ShapeCasts S4x16x1
  shapeCasts_S8x16x1_S8x16 : S8x16x1.ShapeCasts S8x16
  bcast_S_S8x16 : S_.BroadcastsInDim S8x16 (![] : Fin 0 → Fin S8x16.rank)
  reducesTo_S8x16_S8_d1 : S8x16.ReducesTo [1] S8
  h_S_ : 0 < S_.numel
  bcast_S_S8 : S_.BroadcastsInDim S8 (![] : Fin 0 → Fin S8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16x128x256.size a ≤ S8x16x512x512.size a
  hwx0_0 : ∀ i : grid0.Coords, EltTy.bits .f32 = 32 ∨ (Rect.block (s := S8x16x512x512) S4x16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x256.size a ≤ S8x512x512.size a
  hwx0_1 : ∀ i : grid0.Coords, EltTy.bits .i32 = 32 ∨ (Rect.block (s := S8x512x512) S4x128x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x1.size a ≤ S8x16x1.size a
  hwx0_2 : ∀ i : grid0.Coords, EltTy.bits .f32 = 32 ∨ (Rect.block (s := S8x16x1) S4x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16x1.size a ≤ S8x16x1.size a
  hwx0_3 : ∀ i : grid0.Coords, EltTy.bits .f32 = 32 ∨ (Rect.block (s := S8x16x1) S4x16x1.size (cc0_transform_3 i) (hinb0_3 i)).WholeWords (EltTy.packing .f32)

variable [Facts₀]

abbrev win0_0 : Pipeline.Window sig grid0 :=
  Pipeline.Window.ofSpec (Memref.whole main_arg0) S4x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x16x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512 : Shape := ⟨3, ![8, 512, 512]⟩
abbrev S8x1x512x512 : Shape := ⟨4, ![8, 1, 512, 512]⟩
abbrev S1x16x1x1 : Shape := ⟨4, ![1, 16, 1, 1]⟩
abbrev S_ : Shape := ⟨0, ![]⟩
abbrev S8x16 : Shape := ⟨2, ![8, 16]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S8x512x512, .i32⟩
  | .hbm, ⟨2, _⟩ => ⟨S8x1x512x512, .i32⟩
  | .hbm, ⟨3, _⟩ => ⟨S1x16x1x1, .i32⟩
  | .hbm, ⟨4, _⟩ => ⟨S8x16x512x512, .i32⟩
  | .hbm, ⟨5, _⟩ => ⟨S8x16x512x512, .i32⟩
  | .hbm, ⟨6, _⟩ => ⟨S8x16x512x512, .i1⟩
  | .hbm, ⟨7, _⟩ => ⟨S8x16x512x512, .f32⟩
  | .hbm, ⟨8, _⟩ => ⟨S8x16x512x512, .f32⟩
  | .hbm, ⟨9, _⟩ => ⟨S_, .f32⟩
  | .hbm, ⟨10, _⟩ => ⟨S8x16, .f32⟩
  | .hbm, ⟨11, _⟩ => ⟨S_, .f32⟩
  | .hbm, ⟨12, _⟩ => ⟨S8x16, .f32⟩
  | .hbm, ⟨13, _⟩ => ⟨S8x16, .f32⟩
  | .hbm, ⟨14, _⟩ => ⟨S_, .f32⟩
  | .hbm, ⟨15, _⟩ => ⟨S8x16, .f32⟩
  | .hbm, ⟨16, _⟩ => ⟨S8x16, .f32⟩
  | .hbm, ⟨17, _⟩ => ⟨S_, .f32⟩
  | .hbm, ⟨18, _⟩ => ⟨S8x16, .f32⟩
  | .hbm, ⟨19, _⟩ => ⟨S_, .f32⟩
  | .hbm, ⟨20, _⟩ => ⟨S8x16, .f32⟩
  | .hbm, ⟨21, _⟩ => ⟨S8x16, .f32⟩
  | .hbm, ⟨22, _⟩ => ⟨S_, .f32⟩
  | .hbm, ⟨23, _⟩ => ⟨S8x16, .f32⟩
  | .hbm, ⟨24, _⟩ => ⟨S8x16, .f32⟩
  | .hbm, ⟨25, _⟩ => ⟨S8x16, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S8x512x512_S8x1x512x512_0_2_3 : S8x512x512.BroadcastsInDim S8x1x512x512 (![0, 2, 3] : Fin 3 → Fin S8x1x512x512.rank)
  bcast_S8x1x512x512_S8x16x512x512_0_1_2_3 : S8x1x512x512.BroadcastsInDim S8x16x512x512 (![0, 1, 2, 3] : Fin 4 → Fin S8x16x512x512.rank)
  bcast_S1x16x1x1_S8x16x512x512_0_1_2_3 : S1x16x1x1.BroadcastsInDim S8x16x512x512 (![0, 1, 2, 3] : Fin 4 → Fin S8x16x512x512.rank)
  reducesTo_S8x16x512x512_S8x16_d2_3 : S8x16x512x512.ReducesTo [2, 3] S8x16
  h_S_ : 0 < S_.numel
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)

variable [Facts₀]

class Facts : Prop extends Facts₀ where

variable [Facts]
-- ==== Proof.DicePieces.lean ====
/-
  What one grid point leaves in the two accumulator blocks, read as values.

  The body loads the whole prediction tile x0 : [4,16,128,256] and the whole label tile x1 : [4,128,256],
  and stores into each [4,16,1] accumulator block its previous contents plus this tile's partial sum.
  At the first point of a batch block the previous contents are the zero block the body has just stored
  there; at every later point they are what the point before left.
-/
import proofs.«148185_j43989055045728_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a batch block: the overlap accumulator ends at its previous contents plus the tile's
    masked sum. -/
theorem out_B_2 (c : Dev nD) (i : grid0.Coords) (a3 : Memref sig .tc .vmem S4x16x128x256 .f32) (h3 : a3.IsWhole)
    (a4 : Memref sig .tc .vmem S4x128x256 .i32) (h4 : a4.IsWhole) (a5 : Memref sig .tc .vmem S4x16x1 .f32) (h5 : a5.IsWhole)
    (a6 : Memref sig .tc .vmem S4x16x1 .f32) (h6 : a6.IsWhole) (hc : ¬cond0_0 i)
    (x0 : Vec F S4x16x128x256 .f32) (x1 : Vec F S4x128x256 .i32) (xo2 xo3 : Vec F S4x16x1 .f32) :
    out0_B_2 c i a3 h3 a4 h4 a5 h5 a6 h6 hc x0 x1 xo2 xo3 = k0_pay4 x0 x1 xo2 := by
  unfold out0_B_2
  rw [View.read_writes_eq_canon _ _ _ (cover0_B_2 c i a3 h3 a4 h4 a5 h5 a6 h6 hc x0 x1 xo2 xo3)]
  unfold kernelRun0_B
  dsimp only
  sl_unfold_words
  rw [View.canon_unit_zero hz3]
  simp only [View.readAt_eq_ld, h3.read_unread, h4.read_unread, h5.read_unread, View.ld_unit_zero (S := S4x16x128x256) hz4, View.ld_unit_zero (S := S4x128x256) hz3, View.ld_unit_zero (S := S4x16x1) hz3]

/-- A later point of a batch block: the denominator accumulator ends at its previous contents plus the
    tile's sum of prediction plus indicator. -/
theorem out_B_3 (c : Dev nD) (i : grid0.Coords) (a3 : Memref sig .tc .vmem S4x16x128x256 .f32) (h3 : a3.IsWhole)
    (a4 : Memref sig .tc .vmem S4x128x256 .i32) (h4 : a4.IsWhole) (a5 : Memref sig .tc .vmem S4x16x1 .f32) (h5 : a5.IsWhole)
    (a6 : Memref sig .tc .vmem S4x16x1 .f32) (h6 : a6.IsWhole) (hc : ¬cond0_0 i)
    (x0 : Vec F S4x16x128x256 .f32) (x1 : Vec F S4x128x256 .i32) (xo2 xo3 : Vec F S4x16x1 .f32) :
    out0_B_3 c i a3 h3 a4 h4 a5 h5 a6 h6 hc x0 x1 xo2 xo3 = k0_pay5 x0 x1 xo3 := by
  unfold out0_B_3
  rw [View.read_writes_eq_canon _ _ _ (cover0_B_3 c i a3 h3 a4 h4 a5 h5 a6 h6 hc x0 x1 xo2 xo3)]
  unfold kernelRun0_B
  dsimp only
  sl_unfold_words
  rw [View.canon_unit_zero hz3]
  simp only [View.readAt_eq_ld, h3.read_unread, h4.read_unread, h6.read_unread, View.ld_unit_zero (S := S4x16x128x256) hz4, View.ld_unit_zero (S := S4x128x256) hz3, View.ld_unit_zero (S := S4x16x1) hz3]

/-- The first point of a batch block: the overlap accumulator is zeroed, read back, and ends at zero plus
    the tile's masked sum. -/
theorem out_A_2 (c : Dev nD) (i : grid0.Coords) (a3 : Memref sig .tc .vmem S4x16x128x256 .f32) (h3 : a3.IsWhole)
    (a4 : Memref sig .tc .vmem S4x128x256 .i32) (h4 : a4.IsWhole) (a5 : Memref sig .tc .vmem S4x16x1 .f32) (h5 : a5.IsWhole)
    (a6 : Memref sig .tc .vmem S4x16x1 .f32) (h6 : a6.IsWhole) (hc : cond0_0 i)
    (x0 : Vec F S4x16x128x256 .f32) (x1 : Vec F S4x128x256 .i32) :
    out0_A_2 c i a3 h3 a4 h4 a5 h5 a6 h6 hc x0 x1 = k0_pay4 x0 x1 (k0_pay1 (F := F)) := by
  unfold out0_A_2
  rw [View.read_writes_eq_canon _ _ _ (cover0_A_2 c i a3 h3 a4 h4 a5 h5 a6 h6 hc x0 x1)]
  unfold kernelRun0_A
  dsimp only
  sl_unfold_words
  rw [View.canon_cons_unit_zero (S := S4x16x1) hz3, View.readCov_unit_zero (S := S4x16x1) _ hz3]
  simp only [View.readAt_eq_ld, h3.read_unread, h4.read_unread, View.ld_unit_zero (S := S4x16x128x256) hz4, View.ld_unit_zero (S := S4x128x256) hz3, View.ld_unit_zero (S := S4x16x1) hz3]

/-- The first point of a batch block: the denominator accumulator likewise. -/
theorem out_A_3 (c : Dev nD) (i : grid0.Coords) (a3 : Memref sig .tc .vmem S4x16x128x256 .f32) (h3 : a3.IsWhole)
    (a4 : Memref sig .tc .vmem S4x128x256 .i32) (h4 : a4.IsWhole) (a5 : Memref sig .tc .vmem S4x16x1 .f32) (h5 : a5.IsWhole)
    (a6 : Memref sig .tc .vmem S4x16x1 .f32) (h6 : a6.IsWhole) (hc : cond0_0 i)
    (x0 : Vec F S4x16x128x256 .f32) (x1 : Vec F S4x128x256 .i32) :
    out0_A_3 c i a3 h3 a4 h4 a5 h5 a6 h6 hc x0 x1 = k0_pay5 x0 x1 (k0_pay2 (F := F)) := by
  unfold out0_A_3
  rw [View.read_writes_eq_canon _ _ _ (cover0_A_3 c i a3 h3 a4 h4 a5 h5 a6 h6 hc x0 x1)]
  unfold kernelRun0_A
  dsimp only
  sl_unfold_words
  rw [View.canon_cons_unit_zero (S := S4x16x1) hz3, View.readCov_unit_zero (S := S4x16x1) _ hz3]
  simp only [View.readAt_eq_ld, h3.read_unread, h4.read_unread, View.ld_unit_zero (S := S4x16x128x256) hz4, View.ld_unit_zero (S := S4x128x256) hz3, View.ld_unit_zero (S := S4x16x1) hz3]

variable (m : (ℓ : Loc nD τ sig) → Buf (Elt F) ℓ)

/-- At the first point of a batch block the two accumulator blocks end at the zero block plus that point's
    tile sums. -/
theorem step_first (c : Dev nD) (t : Fin cfg0.N) (h0 : t.val % 8 = 0) :
    outsAt0 m c t.val t.isLt
      = (k0_pay4 (iblk m c 0 t) (iblk m c 1 t) (k0_pay1 (F := F)), k0_pay5 (iblk m c 0 t) (iblk m c 1 t) (k0_pay2 (F := F))) := by
  rw [outsAt0_A m c t h0]
  exact Prod.ext
    (out_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t))
    (out_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- At every later point they end at what the point before left plus that point's tile sums. -/
theorem step_later (c : Dev nD) (t : Fin cfg0.N) (h0 : ¬t.val % 8 = 0) :
    outsAt0 m c t.val t.isLt
      = (k0_pay4 (iblk m c 0 t) (iblk m c 1 t) (outsAt0 m c (t.val - 1) (Nat.lt_of_le_of_lt (Nat.sub_le _ _) t.isLt)).1,
         k0_pay5 (iblk m c 0 t) (iblk m c 1 t) (outsAt0 m c (t.val - 1) (Nat.lt_of_le_of_lt (Nat.sub_le _ _) t.isLt)).2) := by
  rw [outsAt0_B m c t h0]
  exact Prod.ext
    (out_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)
    (out_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)

end Cert.KernelIdeal.Pieces

end
-- ==== Proof.DiceTile.lean ====
/-
  One tile's contribution, read at an index, on the extended reals.

  For a prediction tile x0 : [4,16,128,256] and a label tile x1 : [4,128,256], at batch row a and class cc:
    the class test at (a, cc, r, l) compares the label x1 (a, r, l) with cc;
    the overlap block ends at   acc (a, cc, 0) + Σ_r Σ_l (x0 (a, cc, r, l) where the test holds, else 0);
    the denominator block at    acc (a, cc, 0) + Σ_r Σ_l (x0 (a, cc, r, l) + (1 where the test holds, else 0)),
  the inner sum over the 256 lanes, the outer over the 128 rows, each started from zero.
-/
import proofs.«148185_j43989055045728_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-- The class test at one element: the label at (a, r, l) against the class number. -/
theorem mask_apply (x1 : Vec Ideal S4x128x256 .i32) (a : Fin 4) (cc : Fin 16) (r : Fin 128) (l : Fin 256) :
    k0_pay3 (F := Ideal) x1 (ix4 a cc r l) = IntOp.cmpi .eq (x1 (ix3 a r l)) (BitVec.ofNat 32 cc.val) := by
  unfold k0_pay3
  refine congrArg₂ (IntOp.cmpi .eq) ?_ ?_
  · refine (broadcastTo_apply _ broadcasts_S4x1x128x256_S4x16x128x256 (ix4 a cc r l) (ix4 a (0 : Fin 1) r l) (fun d => match d with
      | ⟨0, _⟩ => by show a.val = if (4 : Nat) = 1 then 0 else a.val; rw [if_neg (by decide)]
      | ⟨1, _⟩ => by show (0 : Nat) = if (1 : Nat) = 1 then 0 else cc.val; rw [if_pos rfl]
      | ⟨2, _⟩ => by show r.val = if (128 : Nat) = 1 then 0 else r.val; rw [if_neg (by decide)]
      | ⟨3, _⟩ => by show l.val = if (256 : Nat) = 1 then 0 else l.val; rw [if_neg (by decide)])).trans ?_
    refine shapeCast_apply x1 shapeCasts_S4x128x256_S4x1x128x256 (ix4 a (0 : Fin 1) r l) (ix3 a r l) ?_
    rw [Shape.rowMajor_val_three, Shape.rowMajor_val_four]
    show (a.val * 128 + r.val) * 256 + l.val = ((a.val * 1 + 0) * 128 + r.val) * 256 + l.val
    omega
  · refine (broadcastTo_apply _ broadcasts_S1x16x1x1_S4x16x128x256 (ix4 a cc r l) (ix4 (0 : Fin 1) cc (0 : Fin 1) (0 : Fin 1)) (fun d => match d with
      | ⟨0, _⟩ => by show (0 : Nat) = if (1 : Nat) = 1 then 0 else a.val; rw [if_pos rfl]
      | ⟨1, _⟩ => by show cc.val = if (16 : Nat) = 1 then 0 else cc.val; rw [if_neg (by decide)]
      | ⟨2, _⟩ => by show (0 : Nat) = if (1 : Nat) = 1 then 0 else r.val; rw [if_pos rfl]
      | ⟨3, _⟩ => by show (0 : Nat) = if (1 : Nat) = 1 then 0 else l.val; rw [if_pos rfl])).trans ?_
    exact iota_single_apply .tc S1x16x1x1 32 1 iota_S1x16x1x1_d1_w32 _

/-- A sum over the lanes and then over the rows of a [4,16,128,256] array, each started from the zero word, read at
    (a, cc): the double sum. -/
theorem rows_lanes_sum (v : FVec Ideal S4x16x128x256 .f32) (hφ₁ hφ₂ : FKind.Formats .f32)
    (h₁ : (0x00000000#32 : BitVec 32) = 0x00000000#32) (h₂ : (0x00000000#32 : BitVec 32) = 0x00000000#32)
    (a : Fin 4) (cc : Fin 16) :
    multiReduction .add [2] S4x16 (multiReduction .add [3] S4x16x128 v 0x00000000#32 reduces_S4x16x128x256_S4x16x128 hφ₁ h₁)
        0x00000000#32 reduces_S4x16x128_S4x16 hφ₂ h₂ (ix2 a cc)
      = ∑ r : Fin 128, ∑ l : Fin 256, v (ix4 a cc r l) := by
  refine (Ideal.multiReduction_add_single _ 0x00000000#32 reduces_S4x16x128_S4x16 hφ₂ h₂ (ix2 a cc)).trans ?_
  refine Finset.sum_congr rfl fun r _ => ?_
  refine (Ideal.multiReduction_add_single v 0x00000000#32 reduces_S4x16x128x256_S4x16x128 hφ₁ h₁ _).trans ?_
  refine Finset.sum_congr rfl fun l _ => ?_
  exact congrArg v (funext fun d => Fin.ext (by
    match d with
    | ⟨0, _⟩ => rfl
    | ⟨1, _⟩ => rfl
    | ⟨2, _⟩ => rfl
    | ⟨3, _⟩ => rfl))

/-- A [4,16] array viewed as a [4,16,1] block reads (a, cc, z) at (a, cc). -/
theorem column_apply {α : Type} (v : S4x16.Idx → α) (a : Fin 4) (cc : Fin 16) (z : Fin 1) :
    shapeCast S4x16x1 v shapeCasts_S4x16_S4x16x1 (ix3 a cc z) = v (ix2 a cc) := by
  refine shapeCast_apply v shapeCasts_S4x16_S4x16x1 (ix3 a cc z) (ix2 a cc) ?_
  rw [Shape.rowMajor_val_two, Shape.rowMajor_val_three]
  show a.val * 16 + cc.val = (a.val * 16 + cc.val) * 1 + z.val
  have := z.isLt
  omega

/-- The overlap block after a point, at (a, cc, z). -/
theorem overlap_apply (x0 : Vec Ideal S4x16x128x256 .f32) (x1 : Vec Ideal S4x128x256 .i32) (acc : Vec Ideal S4x16x1 .f32)
    (a : Fin 4) (cc : Fin 16) (z : Fin 1) :
    k0_pay4 (F := Ideal) x0 x1 acc (ix3 a cc z)
      = acc (ix3 a cc z) + ∑ r : Fin 128, ∑ l : Fin 256,
          Scalar.select (IntOp.cmpi .eq (x1 (ix3 a r l)) (BitVec.ofNat 32 cc.val)) (x0 (ix4 a cc r l)) (Ideal.ofBits .f32 0x00000000#32) := by
  unfold k0_pay4
  refine congrArg₂ (· + ·) ?_ ?_
  · exact congrFun (shapeCast_self acc shapeCasts_S4x16x1_S4x16x1) _
  · refine (column_apply _ a cc z).trans ?_
    refine (rows_lanes_sum _ _ _ _ _ a cc).trans ?_
    refine Finset.sum_congr rfl fun r _ => Finset.sum_congr rfl fun l _ => ?_
    exact congrArg (fun b => Scalar.select b (x0 (ix4 a cc r l)) (Ideal.ofBits .f32 0x00000000#32)) (mask_apply x1 a cc r l)

/-- The denominator block after a point, at (a, cc, z). -/
theorem mass_apply (x0 : Vec Ideal S4x16x128x256 .f32) (x1 : Vec Ideal S4x128x256 .i32) (acc : Vec Ideal S4x16x1 .f32)
    (a : Fin 4) (cc : Fin 16) (z : Fin 1) :
    k0_pay5 (F := Ideal) x0 x1 acc (ix3 a cc z)
      = acc (ix3 a cc z) + ∑ r : Fin 128, ∑ l : Fin 256,
          (x0 (ix4 a cc r l) + FloatOps.sitofp (F := Ideal) .f32 ((IntOp.cmpi .eq (x1 (ix3 a r l)) (BitVec.ofNat 32 cc.val)).setWidth 32)) := by
  unfold k0_pay5
  refine congrArg₂ (· + ·) ?_ ?_
  · exact congrFun (shapeCast_self acc shapeCasts_S4x16x1_S4x16x1) _
  · refine (column_apply _ a cc z).trans ?_
    refine (rows_lanes_sum _ _ _ _ _ a cc).trans ?_
    refine Finset.sum_congr rfl fun r _ => Finset.sum_congr rfl fun l _ => ?_
    exact congrArg (fun b : BitVec 1 => x0 (ix4 a cc r l) + FloatOps.sitofp (F := Ideal) .f32 (b.setWidth 32)) (mask_apply x1 a cc r l)

/-- The zero block the first point of a batch block stores is zero at every index. -/
theorem zero2_apply (y : S4x16x1.Idx) : k0_pay1 (F := Ideal) y = 0 := Ideal.ofBits_zero_f32
theorem zero3_apply (y : S4x16x1.Idx) : k0_pay2 (F := Ideal) y = 0 := Ideal.ofBits_zero_f32

end Cert.KernelIdeal.Tile

end
-- ==== Proof.LibGridSums.lean ====
/-
  Sums over a plane cut into tiles, in any commutative additive monoid and for any sizes.
-/
import Mathlib.Algebra.BigOperators.Fin

namespace GridSums

variable {M : Type*} [AddCommMonoid M]

/-- A sum over A·B consecutive positions is the sum over A tiles of B positions each: position B·a + j is
    position j of tile a. -/
theorem sum_tiles (A B : ℕ) (g : ℕ → M) :
    ∑ i : Fin (A * B), g i.val = ∑ a : Fin A, ∑ j : Fin B, g (B * a.val + j.val) := by
  rw [← finProdFinEquiv.sum_comp, Fintype.sum_prod_type]
  refine Finset.sum_congr rfl fun a _ => Finset.sum_congr rfl fun j _ => ?_
  show g (j.val + B * a.val) = _
  rw [Nat.add_comm]

/-- A plane of (A·B) × (C·D) cut into A × C tiles of B × D, the tiles visited in row-major order s = 0 … A·C - 1
    (row tile s / C, column tile s % C): the sum over the visits of each tile's double sum is the double sum over
    the plane. This is what an accumulator that is reset before the first tile and added into at every tile holds
    after the last one, whatever the order of the visits inside the sum. -/
theorem sum_grid (A B C D : ℕ) (hC : 0 < C) (f : ℕ → ℕ → M) :
    ∑ s ∈ Finset.range (A * C), ∑ r : Fin B, ∑ l : Fin D, f (B * (s / C) + r.val) (D * (s % C) + l.val)
      = ∑ h : Fin (A * B), ∑ w : Fin (C * D), f h.val w.val := by
  rw [Finset.sum_range]
  refine (sum_tiles (M := M) A C (fun s => ∑ r : Fin B, ∑ l : Fin D, f (B * (s / C) + r.val) (D * (s % C) + l.val))).trans ?_
  have hR : ∑ h : Fin (A * B), ∑ w : Fin (C * D), f h.val w.val
      = ∑ a : Fin A, ∑ r : Fin B, ∑ w : Fin (C * D), f (B * a.val + r.val) w.val :=
    sum_tiles (M := M) A B (fun h => ∑ w : Fin (C * D), f h w.val)
  rw [hR]
  refine Finset.sum_congr rfl fun a _ => ?_
  rw [Finset.sum_comm]
  refine Finset.sum_congr rfl fun r _ => ?_
  have hW : ∑ w : Fin (C * D), f (B * a.val + r.val) w.val
      = ∑ c : Fin C, ∑ l : Fin D, f (B * a.val + r.val) (D * c.val + l.val) :=
    sum_tiles (M := M) C D (fun w => f (B * a.val + r.val) w)
  rw [hW]
  refine Finset.sum_congr rfl fun c _ => Finset.sum_congr rfl fun l _ => ?_
  have h1 : (C * a.val + c.val) / C = a.val := by
    rw [Nat.mul_add_div hC, Nat.div_eq_of_lt c.isLt, Nat.add_zero]
  have h2 : (C * a.val + c.val) % C = c.val := by
    rw [Nat.mul_add_mod, Nat.mod_eq_of_lt c.isLt]
  rw [h1, h2]

end GridSums
-- ==== Proof.DiceSpec.lean ====
/-
  The two per-class sums of the soft Dice score, as functions of the prediction array
  P : [8,16,512,512] and the label array T : [8,512,512], on the extended reals:

    overlap P T b c = Σ_h Σ_w (P (b, c, h, w) where T (b, h, w) is the class c, else 0)
    mass    P T b c = Σ_h Σ_w (P (b, c, h, w) + (1 where T (b, h, w) is the class c, else 0))

  and the law that lets a sum taken tile by tile be read as the flat sum: the 512 × 512 plane is cut into
  4 × 2 tiles of 128 × 256, visited in row-major order s = 0 … 7 (row tile s / 2, column tile s % 2), and
  on the extended reals — a commutative monoid under addition — the order and grouping do not matter
  (the general statement, for any sizes, is in LibGridSums).
-/
import Idealize.ShloMosaic.PureOps.Ideal
import Idealize.ShloMosaic.PureOps.Ideal.Laws
import Idealize.ShloMosaic.Lib.ValueIdx
import proofs.«148185_j43989055045728_2_alg».proof.Proof.LibGridSums

noncomputable section

namespace Cert.Dice

open Idealize.ShloMosaic Idealize.ShloMosaic.ValueIdx

/-! ## The indicator of a one-bit test -/

/-- One where the test holds, zero where it does not. -/
def ind (b : BitVec 1) : EReal := ((b.toNat : ℝ) : EReal)

theorem ind_one : ind 1#1 = 1 := by simp [ind]
theorem ind_zero : ind 0#1 = 0 := by simp [ind]

/-- A one-bit word widened without sign and then read as a signed integer is the indicator. -/
theorem sitofp_widen (b : BitVec 1) : FloatOps.sitofp (F := Ideal) .f32 (b.setWidth 32) = ind b := by
  show (((b.setWidth 32).toInt : ℝ) : EReal) = ((b.toNat : ℝ) : EReal)
  by_cases h : b = 1#1
  · subst h
    have e : ((1#1 : BitVec 1).setWidth 32).toInt = 1 := by decide
    rw [e]; simp
  · have h0 := eq_zero_of_ne_one h
    subst h0
    have e : ((0#1 : BitVec 1).setWidth 32).toInt = 0 := by decide
    rw [e]; simp

/-- A one-bit word read as an unsigned integer is the indicator. -/
theorem uitofp_bit (b : BitVec 1) : FloatOps.uitofp (F := Ideal) .f32 b = ind b := rfl

/-- Multiplying by the indicator keeps the value where the test holds and gives zero where it does not:
    on the extended reals x · 1 = x and x · 0 = 0 for every x, the infinities included. -/
theorem mul_ind (x : EReal) (b : BitVec 1) : x * ind b = Scalar.select b x 0 := by
  by_cases h : b = 1#1
  · subst h; rw [ind_one, mul_one, select_one]
  · have h0 := eq_zero_of_ne_one h
    subst h0; rw [ind_zero, mul_zero, select_zero]

/-! ## Sums over tiles -/

section Tiles

variable {M : Type*} [AddCommMonoid M]

/-- The 512 × 512 plane in 4 × 2 tiles of 128 × 256. -/
theorem sum_plane (f : ℕ → ℕ → M) :
    ∑ s ∈ Finset.range 8, ∑ r : Fin 128, ∑ l : Fin 256, f (128 * (s / 2) + r.val) (256 * (s % 2) + l.val)
      = ∑ h : Fin 512, ∑ w : Fin 512, f h.val w.val :=
  GridSums.sum_grid 4 128 2 256 (by decide) f

end Tiles

/-! ## The arrays read at natural-number coordinates, and the two sums -/

/-- The prediction at natural-number coordinates (zero outside the array: never read there). -/
def Pn (P : (⟨4, ![8, 16, 512, 512]⟩ : Shape).Idx → EReal) (a b c d : ℕ) : EReal :=
  if h : a < 8 ∧ b < 16 ∧ c < 512 ∧ d < 512 then P (ix4 ⟨a, h.1⟩ ⟨b, h.2.1⟩ ⟨c, h.2.2.1⟩ ⟨d, h.2.2.2⟩) else 0

/-- The label at natural-number coordinates (the zero word outside the array: never read there). -/
def Tn (T : (⟨3, ![8, 512, 512]⟩ : Shape).Idx → BitVec 32) (a c d : ℕ) : BitVec 32 :=
  if h : a < 8 ∧ c < 512 ∧ d < 512 then T (ix3 ⟨a, h.1⟩ ⟨c, h.2.1⟩ ⟨d, h.2.2⟩) else 0#32

theorem Pn_fin (P : (⟨4, ![8, 16, 512, 512]⟩ : Shape).Idx → EReal) (a : Fin 8) (b : Fin 16) (c d : Fin 512) :
    Pn P a.val b.val c.val d.val = P (ix4 a b c d) := dif_pos ⟨a.isLt, b.isLt, c.isLt, d.isLt⟩

theorem Tn_fin (T : (⟨3, ![8, 512, 512]⟩ : Shape).Idx → BitVec 32) (a : Fin 8) (c d : Fin 512) :
    Tn T a.val c.val d.val = T (ix3 a c d) := dif_pos ⟨a.isLt, c.isLt, d.isLt⟩

/-- The class test: is the label at (a, c, d) the class k? -/
def hit (T : (⟨3, ![8, 512, 512]⟩ : Shape).Idx → BitVec 32) (a c d k : ℕ) : BitVec 1 :=
  IntOp.cmpi .eq (Tn T a c d) (BitVec.ofNat 32 k)

variable (P : (⟨4, ![8, 16, 512, 512]⟩ : Shape).Idx → EReal) (T : (⟨3, ![8, 512, 512]⟩ : Shape).Idx → BitVec 32)

/-- The prediction mass on the pixels labelled k, for batch row b. -/
def overlap (b k : ℕ) : EReal :=
  ∑ h : Fin 512, ∑ w : Fin 512, Scalar.select (hit T b h.val w.val k) (Pn P b k h.val w.val) 0

/-- The prediction mass of class k plus the number of pixels labelled k, for batch row b. -/
def mass (b k : ℕ) : EReal :=
  ∑ h : Fin 512, ∑ w : Fin 512, (Pn P b k h.val w.val + ind (hit T b h.val w.val k))

/-- What grid point n adds to the overlap of row a of its batch block: the sum over its 128 × 256 tile. The
    batch block is n / 8; inside it the tile is s = n % 8, row tile s / 2 and column tile s % 2. -/
def tileOverlap (n a k : ℕ) : EReal :=
  ∑ r : Fin 128, ∑ l : Fin 256,
    Scalar.select (hit T (4 * (n / 8) + a) (128 * (n % 8 / 2) + r.val) (256 * (n % 8 % 2) + l.val) k)
      (Pn P (4 * (n / 8) + a) k (128 * (n % 8 / 2) + r.val) (256 * (n % 8 % 2) + l.val)) 0

/-- What grid point n adds to the mass of row a of its batch block. -/
def tileMass (n a k : ℕ) : EReal :=
  ∑ r : Fin 128, ∑ l : Fin 256,
    (Pn P (4 * (n / 8) + a) k (128 * (n % 8 / 2) + r.val) (256 * (n % 8 % 2) + l.val)
      + ind (hit T (4 * (n / 8) + a) (128 * (n % 8 / 2) + r.val) (256 * (n % 8 % 2) + l.val) k))

/-- The eight tiles of batch block q add up to the plane: the overlap. -/
theorem overlap_of_tiles (q a k : ℕ) :
    ∑ s ∈ Finset.range 8, tileOverlap P T (8 * q + s) a k = overlap P T (4 * q + a) k := by
  have e : ∀ s ∈ Finset.range 8, tileOverlap P T (8 * q + s) a k
      = ∑ r : Fin 128, ∑ l : Fin 256, (fun h w => Scalar.select (hit T (4 * q + a) h w k) (Pn P (4 * q + a) k h w) 0)
          (128 * (s / 2) + r.val) (256 * (s % 2) + l.val) := by
    intro s hs
    have hs' := Finset.mem_range.mp hs
    have h1 : (8 * q + s) / 8 = q := by omega
    have h2 : (8 * q + s) % 8 = s := by omega
    unfold tileOverlap
    rw [h1, h2]
  rw [Finset.sum_congr rfl e]
  exact sum_plane (fun h w => Scalar.select (hit T (4 * q + a) h w k) (Pn P (4 * q + a) k h w) 0)

/-- The eight tiles of batch block q add up to the plane: the mass. -/
theorem mass_of_tiles (q a k : ℕ) :
    ∑ s ∈ Finset.range 8, tileMass P T (8 * q + s) a k = mass P T (4 * q + a) k := by
  have e : ∀ s ∈ Finset.range 8, tileMass P T (8 * q + s) a k
      = ∑ r : Fin 128, ∑ l : Fin 256, (fun h w => Pn P (4 * q + a) k h w + ind (hit T (4 * q + a) h w k))
          (128 * (s / 2) + r.val) (256 * (s % 2) + l.val) := by
    intro s hs
    have hs' := Finset.mem_range.mp hs
    have h1 : (8 * q + s) / 8 = q := by omega
    have h2 : (8 * q + s) % 8 = s := by omega
    unfold tileMass
    rw [h1, h2]
  rw [Finset.sum_congr rfl e]
  exact sum_plane (fun h w => Pn P (4 * q + a) k h w + ind (hit T (4 * q + a) h w k))

end Cert.Dice

end
-- ==== Proof.DiceAcc.lean ====
/-
  The accumulation across the grid, on the extended reals.

  Grid point t belongs to batch block t / 8; inside it the tile is s = t % 8 (row tile s / 2, column tile s % 2).
  A block of the prediction array read through the window at t is the array at batch rows 4·(t/8) + a, every
  class, rows 128·(s/2) + r and columns 256·(s%2) + l; the label block likewise. So after point t the two
  accumulator blocks hold, at (a, k), the sum over the tiles 0 … t % 8 of the batch block of that tile's sums.
-/
import proofs.«148185_j43989055045728_2_alg».proof.Proof.DicePieces
import proofs.«148185_j43989055045728_2_alg».proof.Proof.DiceTile
import proofs.«148185_j43989055045728_2_alg».proof.Proof.DiceSpec

noncomputable section

open Idealize.ShloMosaic Idealize.ShloMosaic.TcCoe Idealize.SL.Sem Idealize.ShloMosaic.ValueIdx

namespace Cert.KernelIdeal.Acc

open Cert.KernelIdeal Cert.KernelIdeal.Gen Cert.Dice

variable (m : (ℓ : Loc nD τ sig) → Buf (Elt Ideal) ℓ)

/-- The prediction array and the label array as the region finds them. -/
abbrev argP (c : Dev nD) : (⟨4, ![8, 16, 512, 512]⟩ : Shape).Idx → EReal := V m c main_arg0
abbrev argT (c : Dev nD) : (⟨3, ![8, 512, 512]⟩ : Shape).Idx → BitVec 32 := V m c main_arg1

/-- The printed index maps over the sixteen grid points. -/
theorem idx_facts : ∀ t : Fin cfg0.N,
    win0_0.index t (0 : Fin 4) = t.val / 8 ∧ win0_0.index t (1 : Fin 4) = 0
    ∧ win0_0.index t (2 : Fin 4) = t.val % 8 / 2 ∧ win0_0.index t (3 : Fin 4) = t.val % 8 % 2
    ∧ win0_1.index t (0 : Fin 3) = t.val / 8 ∧ win0_1.index t (1 : Fin 3) = t.val % 8 / 2
    ∧ win0_1.index t (2 : Fin 3) = t.val % 8 % 2
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The prediction block at point t, at (a, k, r, l). -/
theorem pred_block (c : Dev nD) (t : Fin cfg0.N) (a : Fin 4) (k : Fin 16) (r : Fin 128) (l : Fin 256) :
    (iblk m c 0 t : Vec Ideal S4x16x128x256 .f32) (ix4 a k r l)
      = Pn (argP m c) (4 * (t.val / 8) + a.val) k.val (128 * (t.val % 8 / 2) + r.val) (256 * (t.val % 8 % 2) + l.val) := by
  obtain ⟨e0, e1, e2, e3, -⟩ := idx_facts t
  have hN : t.val < 16 := lt_of_lt_of_eq t.isLt (show cfg0.N = 16 from N_0)
  have ha := a.isLt; have hr := r.isLt; have hl := l.isLt
  unfold iblk Pn
  rw [View.read_apply, dif_pos ⟨by omega, k.isLt, by omega, by omega⟩]
  show V m c main_arg0 _ = V m c main_arg0 _
  refine congrArg (V m c main_arg0) (funext fun d => Fin.ext ?_)
  match d with
  | ⟨0, _⟩ => show win0_0.index t (0 : Fin 4) * 4 + 1 * a.val = 4 * (t.val / 8) + a.val; rw [e0]; omega
  | ⟨1, _⟩ => show win0_0.index t (1 : Fin 4) * 16 + 1 * k.val = k.val; rw [e1]; omega
  | ⟨2, _⟩ => show win0_0.index t (2 : Fin 4) * 128 + 1 * r.val = 128 * (t.val % 8 / 2) + r.val; rw [e2]; omega
  | ⟨3, _⟩ => show win0_0.index t (3 : Fin 4) * 256 + 1 * l.val = 256 * (t.val % 8 % 2) + l.val; rw [e3]; omega

/-- The label block at point t, at (a, r, l). -/
theorem label_block (c : Dev nD) (t : Fin cfg0.N) (a : Fin 4) (r : Fin 128) (l : Fin 256) :
    (iblk m c 1 t : Vec Ideal S4x128x256 .i32) (ix3 a r l)
      = Tn (argT m c) (4 * (t.val / 8) + a.val) (128 * (t.val % 8 / 2) + r.val) (256 * (t.val % 8 % 2) + l.val) := by
  obtain ⟨-, -, -, -, e0, e1, e2, -⟩ := idx_facts t
  have hN : t.val < 16 := lt_of_lt_of_eq t.isLt (show cfg0.N = 16 from N_0)
  have ha := a.isLt; have hr := r.isLt; have hl := l.isLt
  unfold iblk Tn
  rw [View.read_apply, dif_pos ⟨by omega, by omega, by omega⟩]
  show V m c main_arg1 _ = V m c main_arg1 _
  refine congrArg (V m c main_arg1) (funext fun d => Fin.ext ?_)
  match d with
  | ⟨0, _⟩ => show win0_1.index t (0 : Fin 3) * 4 + 1 * a.val = 4 * (t.val / 8) + a.val; rw [e0]; omega
  | ⟨1, _⟩ => show win0_1.index t (1 : Fin 3) * 128 + 1 * r.val = 128 * (t.val % 8 / 2) + r.val; rw [e1]; omega
  | ⟨2, _⟩ => show win0_1.index t (2 : Fin 3) * 256 + 1 * l.val = 256 * (t.val % 8 % 2) + l.val; rw [e2]; omega

/-- What point t adds to the overlap block. -/
theorem add_overlap (c : Dev nD) (t : Fin cfg0.N) (acc : Vec Ideal S4x16x1 .f32) (a : Fin 4) (k : Fin 16) (z : Fin 1) :
    k0_pay4 (F := Ideal) (iblk m c 0 t) (iblk m c 1 t) acc (ix3 a k z)
      = acc (ix3 a k z) + tileOverlap (argP m c) (argT m c) t.val a.val k.val := by
  refine (Tile.overlap_apply (iblk m c 0 t) (iblk m c 1 t) acc a k z).trans ?_
  refine congrArg (acc (ix3 a k z) + ·) ?_
  unfold tileOverlap hit
  refine Finset.sum_congr rfl fun r _ => Finset.sum_congr rfl fun l _ => ?_
  rw [pred_block m c t a k r l, label_block m c t a r l, Ideal.ofBits_zero_f32]

/-- What point t adds to the mass block. -/
theorem add_mass (c : Dev nD) (t : Fin cfg0.N) (acc : Vec Ideal S4x16x1 .f32) (a : Fin 4) (k : Fin 16) (z : Fin 1) :
    k0_pay5 (F := Ideal) (iblk m c 0 t) (iblk m c 1 t) acc (ix3 a k z)
      = acc (ix3 a k z) + tileMass (argP m c) (argT m c) t.val a.val k.val := by
  refine (Tile.mass_apply (iblk m c 0 t) (iblk m c 1 t) acc a k z).trans ?_
  refine congrArg (acc (ix3 a k z) + ·) ?_
  unfold tileMass hit
  refine Finset.sum_congr rfl fun r _ => Finset.sum_congr rfl fun l _ => ?_
  rw [pred_block m c t a k r l, label_block m c t a r l, sitofp_widen]

/-- THE RUNNING SUMS: after point n the accumulator blocks hold, at (a, k), the sums of the tile contributions of
    the points 8·(n/8) … n of the batch block. By induction on the point. -/
theorem running (c : Dev nD) : ∀ (n : ℕ) (h : n < cfg0.N) (a : Fin 4) (k : Fin 16) (z : Fin 1),
    (outsAt0 m c n h).1 (ix3 a k z)
        = ∑ s ∈ Finset.range (n % 8 + 1), tileOverlap (argP m c) (argT m c) (8 * (n / 8) + s) a.val k.val
    ∧ (outsAt0 m c n h).2 (ix3 a k z)
        = ∑ s ∈ Finset.range (n % 8 + 1), tileMass (argP m c) (argT m c) (8 * (n / 8) + s) a.val k.val := by
  intro n
  induction n with
  | zero =>
    intro h a k z
    rw [Pieces.step_first m c ⟨0, h⟩ rfl]
    dsimp only
    rw [add_overlap m c ⟨0, h⟩ _ a k z, add_mass m c ⟨0, h⟩ _ a k z, Tile.zero2_apply, Tile.zero3_apply]
    simp
  | succ n ih =>
    intro h a k z
    by_cases h0 : (n + 1) % 8 = 0
    · rw [Pieces.step_first m c ⟨n + 1, h⟩ h0]
      dsimp only
      rw [add_overlap m c ⟨n + 1, h⟩ _ a k z, add_mass m c ⟨n + 1, h⟩ _ a k z, Tile.zero2_apply, Tile.zero3_apply]
      have e8 : 8 * ((n + 1) / 8) = n + 1 := by omega
      rw [h0, e8]
      simp
    · rw [Pieces.step_later m c ⟨n + 1, h⟩ h0]
      dsimp only
      rw [add_overlap m c ⟨n + 1, h⟩ _ a k z, add_mass m c ⟨n + 1, h⟩ _ a k z]
      obtain ⟨i1, i2⟩ := ih (Nat.lt_of_succ_lt h) a k z
      have eq1 : (n + 1) % 8 = n % 8 + 1 := by omega
      have eq2 : (n + 1) / 8 = n / 8 := by omega
      have eq3 : 8 * (n / 8) + (n % 8 + 1) = n + 1 := by omega
      refine ⟨?_, ?_⟩
      · show (outsAt0 m c n _).1 (ix3 a k z) + _ = _
        rw [i1, eq1, eq2, Finset.sum_range_succ _ (n % 8 + 1), eq3]
      · show (outsAt0 m c n _).2 (ix3 a k z) + _ = _
        rw [i2, eq1, eq2, Finset.sum_range_succ _ (n % 8 + 1), eq3]

end Cert.KernelIdeal.Acc

end
-- ==== Proof.DiceArrays.lean ====
/-
  The two arrays the region leaves, on the extended reals.

  The accumulator block of batch block q is written back once, after its last tile (point 8·q + 7); by then it
  holds the sum over all eight tiles, which is the sum over the whole 512 × 512 plane. The two blocks [4,16,1]
  tile the result arrays [8,16,1], so array entry (b, k, 0) ends at overlap P T b k, resp. mass P T b k.
-/
import proofs.«148185_j43989055045728_2_alg».proof.Proof.DiceAcc

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Dice Cert.KernelIdeal.Acc

variable (m : (ℓ : Loc nD τ sig) → Buf (Elt Ideal) ℓ)

/-- The overlap array: entry (b, k, 0) is the overlap of batch row b and class k. -/
abbrev arrOverlap (c : Dev nD) : Buf (Elt Ideal) ((c : Thread nD τ).loc main_v0_0) :=
  fun i => overlap (argP m c) (argT m c) (i 0).val (i 1).val

/-- The mass array: entry (b, k, 0) is the mass of batch row b and class k. -/
abbrev arrMass (c : Dev nD) : Buf (Elt Ideal) ((c : Thread nD τ).loc main_v0_1) :=
  fun i => mass (argP m c) (argT m c) (i 0).val (i 1).val

/-- The running sums as whole blocks. -/
theorem running_fst (c : Dev nD) (n : ℕ) (h : n < cfg0.N) :
    (outsAt0 m c n h).1 = fun y : S4x16x1.Idx =>
      ∑ s ∈ Finset.range (n % 8 + 1), tileOverlap (argP m c) (argT m c) (8 * (n / 8) + s) (y 0).val (y 1).val := by
  funext y
  obtain ⟨a, k, z, rfl⟩ : ∃ (a : Fin 4) (k : Fin 16) (z : Fin 1), y = ix3 a k z := ⟨y 0, y 1, y 2, eq_ix3 y⟩
  exact (running m c n h a k z).1

theorem running_snd (c : Dev nD) (n : ℕ) (h : n < cfg0.N) :
    (outsAt0 m c n h).2 = fun y : S4x16x1.Idx =>
      ∑ s ∈ Finset.range (n % 8 + 1), tileMass (argP m c) (argT m c) (8 * (n / 8) + s) (y 0).val (y 1).val := by
  funext y
  obtain ⟨a, k, z, rfl⟩ : ∃ (a : Fin 4) (k : Fin 16) (z : Fin 1), y = ix3 a k z := ⟨y 0, y 1, y 2, eq_ix3 y⟩
  exact (running m c n h a k z).2

/-- What a writing-back point writes back is its block of the overlap array. -/
theorem flushed2_eq (c : Dev nD) (t : Fin cfg0.N) (hf : (cfg0.win 2).flush t = true) :
    (dats m 0 c).flushed 2 t = ((cfg0.win 2).blk t).view.read (Elt Ideal) (arrOverlap m c) := by
  have h7 : t.val % 8 = 7 := (flush0_2 t).mp hf
  obtain ⟨-, -, -, -, -, -, -, e0, e1, e2, -⟩ := idx_facts t
  show (cfg0.win 2).cut (grid0.coords t) ((dats m 0 c).after 2 t) = _
  rw [after0_2, running_fst m c t.val t.isLt, h7]
  funext y
  show (∑ s ∈ Finset.range (7 + 1), tileOverlap (argP m c) (argT m c) (8 * (t.val / 8) + s) (y 0).val (y 1).val)
    = overlap (argP m c) (argT m c) ((((cfg0.win 2).blk t).view.emb y) 0).val ((((cfg0.win 2).blk t).view.emb y) 1).val
  have q0 : ((((cfg0.win 2).blk t).view.emb y) 0).val = 4 * (t.val / 8) + (y 0).val := by
    show win0_2.index t (0 : Fin 3) * 4 + 1 * (y 0).val = _
    rw [e0]; omega
  have q1 : ((((cfg0.win 2).blk t).view.emb y) 1).val = (y 1).val := by
    show win0_2.index t (1 : Fin 3) * 16 + 1 * (y 1).val = _
    rw [e1]; omega
  rw [q0, q1]
  exact overlap_of_tiles _ _ (t.val / 8) (y 0).val (y 1).val

/-- What a writing-back point writes back is its block of the mass array. -/
theorem flushed3_eq (c : Dev nD) (t : Fin cfg0.N) (hf : (cfg0.win 3).flush t = true) :
    (dats m 0 c).flushed 3 t = ((cfg0.win 3).blk t).view.read (Elt Ideal) (arrMass m c) := by
  have h7 : t.val % 8 = 7 := (flush0_3 t).mp hf
  obtain ⟨-, -, -, -, -, -, -, -, -, -, e0, e1, e2⟩ := idx_facts t
  show (cfg0.win 3).cut (grid0.coords t) ((dats m 0 c).after 3 t) = _
  rw [after0_3, running_snd m c t.val t.isLt, h7]
  funext y
  show (∑ s ∈ Finset.range (7 + 1), tileMass (argP m c) (argT m c) (8 * (t.val / 8) + s) (y 0).val (y 1).val)
    = mass (argP m c) (argT m c) ((((cfg0.win 3).blk t).view.emb y) 0).val ((((cfg0.win 3).blk t).view.emb y) 1).val
  have q0 : ((((cfg0.win 3).blk t).view.emb y) 0).val = 4 * (t.val / 8) + (y 0).val := by
    show win0_3.index t (0 : Fin 3) * 4 + 1 * (y 0).val = _
    rw [e0]; omega
  have q1 : ((((cfg0.win 3).blk t).view.emb y) 1).val = (y 1).val := by
    show win0_3.index t (1 : Fin 3) * 16 + 1 * (y 1).val = _
    rw [e1]; omega
  rw [q0, q1]
  exact mass_of_tiles _ _ (t.val / 8) (y 0).val (y 1).val

/-- An index of a result array is in point t's block iff each coordinate is in the block's range on its axis. -/
theorem mem_blk2 (t : Fin cfg0.N) (i : S8x16x1.Idx) :
    i ∈ ((cfg0.win 2).blk t).view.set ↔ ∀ a : Fin 3, win0_2.index t a * S4x16x1.size a ≤ (i a).val ∧ (i a).val < win0_2.index t a * S4x16x1.size a + S4x16x1.size a := by
  show i ∈ ((View.whole main_v0_0).slice (win0_2.rect t)).set ↔ _
  rw [View.set_slice_whole, Rect.mem_set_unit]
  exact Iff.rfl

theorem mem_blk3 (t : Fin cfg0.N) (i : S8x16x1.Idx) :
    i ∈ ((cfg0.win 3).blk t).view.set ↔ ∀ a : Fin 3, win0_3.index t a * S4x16x1.size a ≤ (i a).val ∧ (i a).val < win0_3.index t a * S4x16x1.size a + S4x16x1.size a := by
  show i ∈ ((View.whole main_v0_1).slice (win0_3.rect t)).set ↔ _
  rw [View.set_slice_whole, Rect.mem_set_unit]
  exact Iff.rfl

/-- Batch row b is written back by the last point of its batch block, 8·(b/4) + 7. -/
theorem cover2 (i : S8x16x1.Idx) : ∃ t : Fin cfg0.N, (cfg0.win 2).flush t = true ∧ i ∈ ((cfg0.win 2).blk t).view.set := by
  have h0 : (i 0).val < 8 := (i 0).isLt
  have h1 : (i 1).val < 16 := (i 1).isLt
  have h2 : (i 2).val < 1 := (i 2).isLt
  have hN : cfg0.N = 16 := N_0
  have ht : 8 * ((i 0).val / 4) + 7 < cfg0.N := by rw [hN]; omega
  have tv : (⟨8 * ((i 0).val / 4) + 7, ht⟩ : Fin cfg0.N).val = 8 * ((i 0).val / 4) + 7 := rfl
  refine ⟨⟨8 * ((i 0).val / 4) + 7, ht⟩, (flush0_2 _).mpr (by rw [tv]; omega), ?_⟩
  obtain ⟨-, -, -, -, -, -, -, e0, e1, e2, -⟩ := idx_facts ⟨8 * ((i 0).val / 4) + 7, ht⟩
  rw [tv] at e0
  rw [mem_blk2]
  intro a
  match a with
  | ⟨0, _⟩ =>
    show win0_2.index _ (0 : Fin 3) * 4 ≤ (i 0).val ∧ (i 0).val < win0_2.index _ (0 : Fin 3) * 4 + 4
    rw [e0]; omega
  | ⟨1, _⟩ =>
    show win0_2.index _ (1 : Fin 3) * 16 ≤ (i 1).val ∧ (i 1).val < win0_2.index _ (1 : Fin 3) * 16 + 16
    rw [e1]; omega
  | ⟨2, _⟩ =>
    show win0_2.index _ (2 : Fin 3) * 1 ≤ (i 2).val ∧ (i 2).val < win0_2.index _ (2 : Fin 3) * 1 + 1
    rw [e2]; omega

theorem cover3 (i : S8x16x1.Idx) : ∃ t : Fin cfg0.N, (cfg0.win 3).flush t = true ∧ i ∈ ((cfg0.win 3).blk t).view.set := by
  have h0 : (i 0).val < 8 := (i 0).isLt
  have h1 : (i 1).val < 16 := (i 1).isLt
  have h2 : (i 2).val < 1 := (i 2).isLt
  have hN : cfg0.N = 16 := N_0
  have ht : 8 * ((i 0).val / 4) + 7 < cfg0.N := by rw [hN]; omega
  have tv : (⟨8 * ((i 0).val / 4) + 7, ht⟩ : Fin cfg0.N).val = 8 * ((i 0).val / 4) + 7 := rfl
  refine ⟨⟨8 * ((i 0).val / 4) + 7, ht⟩, (flush0_3 _).mpr (by rw [tv]; omega), ?_⟩
  obtain ⟨-, -, -, -, -, -, -, -, -, -, e0, e1, e2⟩ := idx_facts ⟨8 * ((i 0).val / 4) + 7, ht⟩
  rw [tv] at e0
  rw [mem_blk3]
  intro a
  match a with
  | ⟨0, _⟩ =>
    show win0_3.index _ (0 : Fin 3) * 4 ≤ (i 0).val ∧ (i 0).val < win0_3.index _ (0 : Fin 3) * 4 + 4
    rw [e0]; omega
  | ⟨1, _⟩ =>
    show win0_3.index _ (1 : Fin 3) * 16 ≤ (i 1).val ∧ (i 1).val < win0_3.index _ (1 : Fin 3) * 16 + 16
    rw [e1]; omega
  | ⟨2, _⟩ =>
    show win0_3.index _ (2 : Fin 3) * 1 ≤ (i 2).val ∧ (i 2).val < win0_3.index _ (2 : Fin 3) * 1 + 1
    rw [e2]; omega

/-- The overlap array after the run. -/
theorem final2 (c : Dev nD) : (dats m 0 c).arrAt 2 cfg0.N = arrOverlap m c :=
  (dats m 0 c).arrAt_eq_of_cover 2 (arrOverlap m c) (flushed2_eq m c) cover2

/-- The mass array after the run. -/
theorem final3 (c : Dev nD) : (dats m 0 c).arrAt 3 cfg0.N = arrMass m c :=
  (dats m 0 c).arrAt_eq_of_cover 3 (arrMass m c) (flushed3_eq m c) cover3

end Cert.KernelIdeal.Arrays

end
-- ==== Proof.DiceTail.lean ====
/-
  From the two per-class sums to the loss: for X, D : [8,16],

    loss X D b = -( (Σ_k (2·X (b,k) + 1) / (D (b,k) + 1)) / 16 ),

  the sum over the 16 classes started from zero. Both programs end with exactly these operations on the same
  literal words (2, 1, 1, 0, 16), so the loss is carried as one function of X and D and never opened.
-/
import Idealize.ShloMosaic.PureOps
import Idealize.ShloMosaic.PureOps.Ideal

noncomputable section

namespace Cert.Dice

open Idealize.ShloMosaic

/-- The soft Dice loss of the overlap array X and the mass array D. -/
def loss (hb : (⟨0, ![]⟩ : Shape).BroadcastsInDim ⟨2, ![8, 16]⟩ (![] : Fin 0 → Fin 2))
    (hr : (⟨2, ![8, 16]⟩ : Shape).ReducesTo [1] ⟨1, ![8]⟩) (h0 : 0 < (⟨0, ![]⟩ : Shape).numel)
    (hb8 : (⟨0, ![]⟩ : Shape).BroadcastsInDim ⟨1, ![8]⟩ (![] : Fin 0 → Fin 1))
    (X D : FVec Ideal ⟨2, ![8, 16]⟩ .f32) : FVec Ideal ⟨1, ![8]⟩ .f32 :=
  Host.negf (F := Ideal)
    (Host.divf (F := Ideal)
      (Host.reduceAdd (F := Ideal)
        (Host.divf (F := Ideal)
          (addf (mulf (broadcastInDim ⟨2, ![8, 16]⟩ ![] hb (constant (F := Ideal) ⟨0, ![]⟩ .f32 0x40000000#32)) X)
            (broadcastInDim ⟨2, ![8, 16]⟩ ![] hb (constant (F := Ideal) ⟨0, ![]⟩ .f32 0x3F800000#32)))
          (addf D (broadcastInDim ⟨2, ![8, 16]⟩ ![] hb (constant (F := Ideal) ⟨0, ![]⟩ .f32 0x3F800000#32))))
        (constant (F := Ideal) ⟨0, ![]⟩ .f32 0x00000000#32) hr h0)
      (broadcastInDim ⟨1, ![8]⟩ ![] hb8 (constant (F := Ideal) ⟨0, ![]⟩ .f32 0x41800000#32)))

end Cert.Dice

end
-- ==== Proof.DiceKernelRun.lean ====
/-
  The kernel's run, read: the result is the loss of the overlap and the mass.

  After the region the program drops the trailing unit axis of the two result arrays and applies the ten host
  operations of the loss. The arrays are the region's final arrays (overlap and mass at (b, k, 0)), so the
  result buffer ends at loss (overlap P T) (mass P T), and the two arguments are unchanged.
-/
import proofs.«148185_j43989055045728_2_alg».proof.Proof.DiceArrays
import proofs.«148185_j43989055045728_2_alg».proof.Proof.DiceTail
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.Dice Cert.KernelIdeal.Acc Cert.KernelIdeal.Arrays

variable (m : (ℓ : Loc nD τ sig) → Buf (Elt Ideal) ℓ) (ρ : Dev nD → PrngReg)

/-- An [8,16,1] array viewed as [8,16] reads (b, k) at (b, k, 0). -/
theorem squeeze_apply {α : Type} (v : S8x16x1.Idx → α) (b : Fin 8) (k : Fin 16) :
    shapeCast S8x16 v shapeCasts_S8x16x1_S8x16 (ix2 b k) = v (ix3 b k (0 : Fin 1)) := by
  refine shapeCast_apply v shapeCasts_S8x16x1_S8x16 (ix2 b k) (ix3 b k (0 : Fin 1)) ?_
  rw [Shape.rowMajor_val_three, Shape.rowMajor_val_two]
  show (b.val * 16 + k.val) * 1 + 0 = b.val * 16 + k.val
  omega

/-- The overlap array without its unit axis. -/
theorem overlap_squeezed (c : Dev nD) :
    shapeCast S8x16 (arrOverlap m c) shapeCasts_S8x16x1_S8x16
      = fun j : S8x16.Idx => overlap (argP m c) (argT m c) (j 0).val (j 1).val := by
  funext j
  obtain ⟨b, k, rfl⟩ : ∃ (b : Fin 8) (k : Fin 16), j = ix2 b k := ⟨j 0, j 1, eq_ix2 j⟩
  exact squeeze_apply (arrOverlap m c) b k

/-- The mass array without its unit axis. -/
theorem mass_squeezed (c : Dev nD) :
    shapeCast S8x16 (arrMass m c) shapeCasts_S8x16x1_S8x16
      = fun j : S8x16.Idx => mass (argP m c) (argT m c) (j 0).val (j 1).val := by
  funext j
  obtain ⟨b, k, rfl⟩ : ∃ (b : Fin 8) (k : Fin 16), j = ix2 b k := ⟨j 0, j 1, eq_ix2 j⟩
  exact squeeze_apply (arrMass m c) b k

/-- The result of the host operations after the region. -/
theorem tail_eq (c : Dev nD) :
    Pipeline.afterTail₀ cfgs (dats m) 0 (V0 m) [hostOps1] c main_v13
      = loss bcast_S_S8x16 reducesTo_S8x16_S8_d1 h_S_ bcast_S_S8
          (fun j : S8x16.Idx => overlap (argP m c) (argT m c) (j 0).val (j 1).val)
          (fun j : S8x16.Idx => mass (argP m c) (argT m c) (j 0).val (j 1).val) := by
  rw [← overlap_squeezed m c, ← mass_squeezed m c]
  unfold Pipeline.afterTail₀
  show StableHlo.after hostOps1 _ (Proc.devRef .tc main_v13) = _
  after_results
  have e2 : Pipeline.withArrays (cfgs 0).spec c (V0 m c) (fun w => (dats m 0 c).arrAt w (cfgs 0).N) (Proc.devRef .tc main_v0_0)
      = arrOverlap m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = arrMass m c :=
    (Pipeline.withArrays_arr spec0 launch0.win.arr_inj c _ _ 3).trans (final3 m c)
  rw [e2, e3]
  rfl

/-- THE RUN: every weakly fair execution terminates with the result at the loss of the overlap and the mass of the
    argument arrays, the arguments unchanged. -/
theorem run : θ_run defs (onTc (τ := τ) (main (F := Ideal))) ⟨m, fun _ => 0, ρ⟩ fun r => ∀ c : Dev nD,
      r.2.mem ((c : Thread nD τ).loc main_v13)
        = loss bcast_S_S8x16 reducesTo_S8x16_S8_d1 h_S_ bcast_S_S8
            (fun j : S8x16.Idx => overlap (m ((c : Thread nD τ).loc main_arg0)) (m ((c : Thread nD τ).loc main_arg1)) (j 0).val (j 1).val)
            (fun j : S8x16.Idx => mass (m ((c : Thread nD τ).loc main_arg0)) (m ((c : Thread nD τ).loc main_arg1)) (j 0).val (j 1).val)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v13 (Pipeline.mem_restRefs_of main_v13 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Run

end
-- ==== Proof.LibPlaneSum.lean ====
/-
  The host's sum over the last two axes of a rank-4 array, on the extended reals and for any sizes.
-/
import Idealize.ShloMosaic.PureOps.Ideal
import Idealize.ShloMosaic.Lib.ValueIdx

namespace PlaneSum

open Idealize.ShloMosaic Idealize.ShloMosaic.ValueIdx

/-- A host sum of an [A,B,H,W] array over its axes 2 and 3, read at (b, k): the initial value plus the double
    sum over (h, w) of the array at (b, k, h, w). The indices that reduce to (b, k) are exactly those that agree
    with it on the first two axes, one for each pair (h, w). -/
theorem hostReduceAdd_axes23 {A B H W : ℕ}
    (h' : (⟨4, ![A, B, H, W]⟩ : Shape).ReducesTo [2, 3] ⟨2, ![A, B]⟩)
    (y : (⟨4, ![A, B, H, W]⟩ : Shape).Idx → EReal) (init : EReal) (b : Fin A) (k : Fin B) :
    Ideal.hostReduceAdd h' y init (ix2 b k) = init + ∑ h : Fin H, ∑ w : Fin W, y (ix4 b k h w) := by
  unfold Ideal.hostReduceAdd
  refine congrArg (init + ·) ?_
  rw [← Fintype.sum_prod_type (f := fun p : Fin H × Fin W => y (ix4 b k p.1 p.2))]
  refine Finset.sum_nbij' (fun i => ((i 2, i 3) : Fin H × Fin W)) (fun p => ix4 b k p.1 p.2) ?_ ?_ ?_ ?_ ?_
  · intro i _; exact Finset.mem_univ _
  · intro p _
    refine Finset.mem_filter.2 ⟨Finset.mem_univ _, funext fun d => Fin.ext ?_⟩
    match d with
    | ⟨0, _⟩ => rfl
    | ⟨1, _⟩ => rfl
  · intro i hi
    have hj := (Finset.mem_filter.1 hi).2
    have j0 : (i 0).val = b.val := congrArg (fun j : (⟨2, ![A, B]⟩ : Shape).Idx => (j 0).val) hj
    have j1 : (i 1).val = k.val := congrArg (fun j : (⟨2, ![A, B]⟩ : Shape).Idx => (j 1).val) hj
    funext d
    apply Fin.ext
    match d with
    | ⟨0, _⟩ => exact j0.symm
    | ⟨1, _⟩ => exact j1.symm
    | ⟨2, _⟩ => rfl
    | ⟨3, _⟩ => rfl
  · intro p _; rfl
  · intro i hi
    have hj := (Finset.mem_filter.1 hi).2
    have j0 : (i 0).val = b.val := congrArg (fun j : (⟨2, ![A, B]⟩ : Shape).Idx => (j 0).val) hj
    have j1 : (i 1).val = k.val := congrArg (fun j : (⟨2, ![A, B]⟩ : Shape).Idx => (j 1).val) hj
    refine congrArg y (funext fun d => Fin.ext ?_)
    match d with
    | ⟨0, _⟩ => exact j0
    | ⟨1, _⟩ => exact j1
    | ⟨2, _⟩ => rfl
    | ⟨3, _⟩ => rfl

end PlaneSum
-- ==== Proof.DiceReference.lean ====
/-
  The reference's two per-class arrays, on the extended reals.

  The host sums over the two spatial axes at once: at (b, k) its result is the initial value plus the sum of the
  operand over the indices that agree with (b, k) on the first two axes, that is the double sum over (h, w).
  The one-hot array is the indicator of the class test, so
    Σ P · onehot                 is  overlap P T b k   (x · 1 = x and x · 0 = 0 on the extended reals),
    (0 + Σ P) + (0 + Σ onehot)   is  mass P T b k      (a sum of sums is the sum of the term-by-term sums).
-/
import proofs.«148185_j43989055045728_2_alg».proof.Proof.Gen.ReferenceIdeal.Read
import proofs.«148185_j43989055045728_2_alg».proof.Proof.DiceSpec
import proofs.«148185_j43989055045728_2_alg».proof.Proof.DiceTail
import proofs.«148185_j43989055045728_2_alg».proof.Proof.LibPlaneSum

noncomputable section

open Idealize.ShloMosaic Idealize.ShloMosaic.ValueIdx

namespace Cert.ReferenceIdeal.RefValue

open Cert.ReferenceIdeal Cert.ReferenceIdeal.Gen Cert.ReferenceIdeal.Read Cert.Dice

/-- The host's sum over the two spatial axes, at (b, k): the initial value plus the double sum over the plane
    (the general statement, for any sizes, is in LibPlaneSum). -/
theorem plane_sum (y : S8x16x512x512.Idx → EReal) (init : EReal) (b : Fin 8) (k : Fin 16) :
    Ideal.hostReduceAdd reducesTo_S8x16x512x512_S8x16_d2_3 y init (ix2 b k)
      = init + ∑ h : Fin 512, ∑ w : Fin 512, y (ix4 b k h w) :=
  PlaneSum.hostReduceAdd_axes23 reducesTo_S8x16x512x512_S8x16_d2_3 y init b k

/-- The one-hot array at (b, k, h, w) is the indicator that the label at (b, h, w) is the class k. -/
theorem onehot_apply (T : (⟨S8x512x512, .i32⟩ : BufTy).Contents (Elt Ideal)) (b : Fin 8) (k : Fin 16) (h w : Fin 512) :
    val_main_v0 (F := Ideal) T (ix4 b k h w) = ind (hit T b.val h.val w.val k.val) := by
  rw [val_main_v0_apply, val_main_call0_v4_apply, val_main_call0_v2_apply, val_main_call0_v0_apply,
    val_main_call0_v3_apply, val_main_call0_v1_apply]
  have e1 : idx_main_call0_v0 (idx_main_call0_v2 (ix4 b k h w)) = ix3 b h w :=
    funext fun a => Fin.ext (by match a with | ⟨0, _⟩ => rfl | ⟨1, _⟩ => rfl | ⟨2, _⟩ => rfl)
  have e2 : (idx_main_call0_v3 (ix4 b k h w) 1).val = k.val := rfl
  rw [e1, e2]
  unfold hit
  rw [Tn_fin]
  exact uitofp_bit _

/-- The reference's first sum is the overlap. -/
theorem ref_overlap (P : (⟨S8x16x512x512, .f32⟩ : BufTy).Contents (Elt Ideal)) (T : (⟨S8x512x512, .i32⟩ : BufTy).Contents (Elt Ideal))
    (b : Fin 8) (k : Fin 16) :
    val_main_v2 (F := Ideal) P T (ix2 b k) = overlap P T b.val k.val := by
  unfold val_main_v2
  simp only [Host.reduceAdd, Ideal.hostReduceAdd_def]
  rw [plane_sum]
  show Ideal.ofBits .f32 0x00000000#32 + _ = _
  rw [Ideal.ofBits_zero_f32, zero_add]
  unfold overlap
  refine Finset.sum_congr rfl fun h _ => Finset.sum_congr rfl fun w _ => ?_
  rw [val_main_v1_apply, onehot_apply]
  show P (ix4 b k h w) * ind (hit T b.val h.val w.val k.val) = _
  rw [mul_ind, Pn_fin]

/-- The reference's denominator sum is the mass. -/
theorem ref_mass (P : (⟨S8x16x512x512, .f32⟩ : BufTy).Contents (Elt Ideal)) (T : (⟨S8x512x512, .i32⟩ : BufTy).Contents (Elt Ideal))
    (b : Fin 8) (k : Fin 16) :
    val_main_v9 (F := Ideal) P T (ix2 b k) = mass P T b.val k.val := by
  rw [val_main_v9_apply]
  unfold val_main_v7 val_main_v8
  simp only [Host.reduceAdd, Ideal.hostReduceAdd_def]
  rw [plane_sum, plane_sum]
  show (Ideal.ofBits .f32 0x00000000#32 + _) + (Ideal.ofBits .f32 0x00000000#32 + _) = _
  rw [Ideal.ofBits_zero_f32, zero_add, zero_add]
  unfold mass
  rw [← Finset.sum_add_distrib]
  refine Finset.sum_congr rfl fun h _ => ?_
  rw [← Finset.sum_add_distrib]
  refine Finset.sum_congr rfl fun w _ => ?_
  rw [onehot_apply, Pn_fin]

/-- The reference's result is the loss of its two per-class arrays: its last ten operations are the loss's. -/
theorem ref_loss (P : (⟨S8x16x512x512, .f32⟩ : BufTy).Contents (Elt Ideal)) (T : (⟨S8x512x512, .i32⟩ : BufTy).Contents (Elt Ideal)) :
    val_main_v16 (F := Ideal) P T
      = loss bcast_S_S8x16 reducesTo_S8x16_S8_d1 h_S_ bcast_S_S8 (val_main_v2 (F := Ideal) P T) (val_main_v9 (F := Ideal) P T) := rfl

/-- So the reference's result is the loss of the overlap and the mass of its arguments. -/
theorem result_eq (P : (⟨S8x16x512x512, .f32⟩ : BufTy).Contents (Elt Ideal)) (T : (⟨S8x512x512, .i32⟩ : BufTy).Contents (Elt Ideal)) :
    val_main_v16 (F := Ideal) P T
      = loss bcast_S_S8x16 reducesTo_S8x16_S8_d1 h_S_ bcast_S_S8
          (fun j : S8x16.Idx => overlap P T (j 0).val (j 1).val) (fun j : S8x16.Idx => mass P T (j 0).val (j 1).val) := by
  have eX : val_main_v2 (F := Ideal) P T = fun j : S8x16.Idx => overlap P T (j 0).val (j 1).val := by
    funext j
    obtain ⟨b, k, rfl⟩ : ∃ (b : Fin 8) (k : Fin 16), j = ix2 b k := ⟨j 0, j 1, eq_ix2 j⟩
    exact ref_overlap P T b k
  have eD : val_main_v9 (F := Ideal) P T = fun j : S8x16.Idx => mass P T (j 0).val (j 1).val := by
    funext j
    obtain ⟨b, k, rfl⟩ : ∃ (b : Fin 8) (k : Fin 16), j = ix2 b k := ⟨j 0, j 1, eq_ix2 j⟩
    exact ref_mass P T b k
  rw [ref_loss, eX, eD]

end Cert.ReferenceIdeal.RefValue

end
-- ==== Proof.lean ====
/-
  Soft Dice loss: a tiled kernel against the plain reference, equal on the extended reals.

  For predictions P : [8,16,512,512] and integer labels T : [8,512,512] both programs compute, per batch row b,

      -( (Σ_k (2·overlap b k + 1) / (mass b k + 1)) / 16 ),

  where overlap b k = Σ_{h,w} P (b,k,h,w)·[T (b,h,w) = k] and mass b k = Σ_{h,w} P (b,k,h,w) + Σ_{h,w} [T (b,h,w) = k].

  The reference builds the one-hot array, multiplies, and sums over the two spatial axes at once; its mass is
  the sum of two separate sums. The kernel walks a grid of 2 × 4 × 2 points: a batch block of 4 rows and, inside
  it, the 512 × 512 plane in 4 × 2 tiles of 128 × 256. At each point it selects P where the label is the class
  (zero elsewhere), adds the indicator to P for the mass, sums each over the tile's lanes and rows, and adds the
  two partial sums into two [4,16,1] accumulator blocks, which it zeroes at the first tile of a batch block and
  writes back after the last. The closing operations — drop the unit axis, 2·x + 1, d + 1, the quotient, the mean
  over the 16 classes, the sign — are the same in both programs, on the same literal words.

  Why the two agree on the extended reals: addition there is commutative and associative and 0 is its unit, so a
  sum taken tile by tile from a zeroed accumulator, each tile's sum itself taken lane by lane and row by row from
  zero, is the flat sum over the plane, and a sum of (P + indicator) is the sum of P plus the sum of the indicator;
  x·1 = x and x·0 = 0 hold for every extended real, the infinities included, so multiplying by the one-hot entry is
  selecting; and a one-bit test widened to 32 bits and read as a signed integer is the same 0 or 1 as the bit read
  unsigned. None of this needs the inputs to be finite, so the precondition is not opened.

  The modules: DiceSpec (overlap, mass, the indicator laws, tiles add up to the plane), DiceTail (the closing
  operations as one function), DicePieces (what one grid point leaves in the accumulator blocks), DiceTile (one
  tile's sums at an index), DiceAcc (the running sums, by induction on the grid point), DiceArrays (the blocks
  written back tile the two result arrays), DiceKernelRun (the kernel's run read), DiceReference (the reference's
  two arrays are overlap and mass).
-/
import proofs.«148185_j43989055045728_2_alg».proof.Defs
import proofs.«148185_j43989055045728_2_alg».proof.Proof.Gen.Kernel
import proofs.«148185_j43989055045728_2_alg».proof.Proof.Gen.Kernel.Skeleton
import proofs.«148185_j43989055045728_2_alg».proof.Proof.Gen.Kernel.Launch
import proofs.«148185_j43989055045728_2_alg».proof.Proof.Gen.Kernel.Points
import proofs.«148185_j43989055045728_2_alg».proof.Proof.Gen.Kernel.Frame
import proofs.«148185_j43989055045728_2_alg».proof.Proof.Gen.KernelIdeal
import proofs.«148185_j43989055045728_2_alg».proof.Proof.Gen.KernelIdeal.Skeleton
import proofs.«148185_j43989055045728_2_alg».proof.Proof.Gen.KernelIdeal.Launch
import proofs.«148185_j43989055045728_2_alg».proof.Proof.Gen.KernelIdeal.Points
import proofs.«148185_j43989055045728_2_alg».proof.Proof.Gen.KernelIdeal.Frame
import proofs.«148185_j43989055045728_2_alg».proof.Proof.Gen.ReferenceIdeal
import proofs.«148185_j43989055045728_2_alg».proof.Proof.Gen.ReferenceIdeal.Run
import proofs.«148185_j43989055045728_2_alg».proof.Proof.Gen.ReferenceIdeal.Read
import proofs.«148185_j43989055045728_2_alg».proof.Proof.Gen.Pre_finite_inputs
import proofs.«148185_j43989055045728_2_alg».proof.Proof.DiceKernelRun
import proofs.«148185_j43989055045728_2_alg».proof.Proof.DiceReference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss of the overlap and the mass of the argument arrays. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
